-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S50000x1 : Shape := ⟨2, ![50000, 1]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S600000x128 .f32) (main_arg2 : FVec F S50000x1 .f32) (main_arg3 : IVec S600000 32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S600000x128 : Shape := ⟨2, ![600000, 128]⟩
abbrev S50000x1 : Shape := ⟨2, ![50000, 1]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S12000x128 : Shape := ⟨2, ![12000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 23
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S50000x1, .f32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S128x128, .f32⟩
  | .hbm, ⟨21, _⟩ => ⟨S1x128, .f32⟩
  | .hbm, ⟨22, _⟩ => ⟨S50000x128, .f32⟩
  | .local _ .vmem, ⟨0, _⟩ => ⟨S12000x128, .f32⟩
  | .local _ .vmem, ⟨1, _⟩ => ⟨S12000x128, .f32⟩
  | .local _ .vmem, ⟨2, _⟩ => ⟨S12000x128, .f32⟩
  | .local _ .vmem, ⟨3, _⟩ => ⟨S12000x128, .f32⟩
  | .local _ .vmem, ⟨4, _⟩ => ⟨S12000x128, .f32⟩
  | .local _ .vmem, ⟨5, _⟩ => ⟨S12000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x128.size a ≤ S600000x128.size a
  hwx0_0 : ∀ i : grid0.Coords, EltTy.bits .f32 = 32 ∨ (Rect.block (s := S600000x128) S12000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x128.size a ≤ S600000x128.size a
  hwx0_1 : ∀ i : grid0.Coords, EltTy.bits .f32 = 32 ∨ (Rect.block (s := S600000x128) S12000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12000x128.size a ≤ S600000x128.size a
  hwx0_2 : ∀ i : grid0.Coords, EltTy.bits .f32 = 32 ∨ (Rect.block (s := S600000x128) S12000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S12000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S12000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S50000x1 : Shape := ⟨2, ![50000, 1]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S50000x1, .f32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S128x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result named.  The program is four segments: the host operations up to the
  gather, the edge-multiply region, the host operations from the scatter-add to the bias reshape, and the
  projection region.  Every weakly fair execution runs them in order and terminates; at the end every unscoped
  buffer holds the contents of the last segment boundary.  Read at the six arguments this is the statement that
  they are unchanged; read at the result buffer it names what the program returns: the boundary contents at the
  result, which the value proof then computes.
-/
import proofs.«159899_j38740605010510_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with the result buffer at the last boundary's contents
    and the six arguments as launched. -/
theorem run : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.NamedRun

end
-- ==== Proof.EdgeProducts.lean ====
/-
  The edge stage as one array.  The first kernel region multiplies two [600000, 128] arrays elementwise, fifty
  blocks of 12000 rows each: grid point t loads rows 12000·t … 12000·t + 11999 of both operands, multiplies them
  entry by entry and writes the same rows of the result.  The fifty row blocks partition the 600000 rows, so after
  the region the result array holds, at every index, the product of the two operands at that index — whatever the
  operands were when the region was entered.
-/
import proofs.«159899_j38740605010510_1_alg».proof.Proof.Gen.KernelIdeal.Frame
import Idealize.ShloMosaic.Lib.Pipeline.Value

noncomputable section

namespace Cert.KernelIdeal.EdgeProducts

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's loads and its store start at the block's origin. -/
theorem origin : (![0, 0] : Fin 2 → Nat) = fun _ => 0 := funext fun a => by fin_cases a <;> rfl

/-- The entrywise product of two edge arrays. -/
abbrev products (a0 a1 : S600000x128.Idx → Elt F .f32) : S600000x128.Idx → Elt F .f32 :=
  fun i => FloatOps.mulf (a0 i) (a1 i)

/-- What the body stores is the entrywise product of the two blocks it loaded (the cast to the block's own shape
    changes nothing). -/
theorem payload_eq (x0 x1 : Vec F S12000x128 .f32) : k0_pay1 x0 x1 = mulf x0 x1 := by
  unfold k0_pay1
  rw [shapeCast_self]

/-- All three windows move together: at point t each one's block is row block t, column block 0. -/
theorem block_indices : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point t writes back is row block t of the entrywise product of the two operand arrays. -/
theorem flushed_eq (c : Dev nD) (t : Fin cfg0.N) :
    (dat0 V c).flushed 2 t
      = ((cfg0.win 2).blk t).view.read (Elt F) (products (V c main_v6) (V c main_arg1)) := by
  show (cfg0.win 2).cut (grid0.coords t) ((dat0 V c).after 2 t) = _
  rw [after0_2]
  unfold out0_2
  rw [View.canon_unit_zero origin]
  simp only [View.ld_unit_zero (S := S12000x128) origin]
  rw [payload_eq]
  obtain ⟨e0, e1, e2, e3, e4, e5⟩ := block_indices t
  funext j
  show FloatOps.mulf (V c main_v6 (((cfg0.win 0).blk t).view.emb j)) (V c main_arg1 (((cfg0.win 1).blk t).view.emb j))
    = FloatOps.mulf (V c main_v6 (((cfg0.win 2).blk t).view.emb j)) (V c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 12000 + 1 * (j 0).val = win0_2.index t (0 : Fin 2) * 12000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 12000 + 1 * (j 0).val = win0_2.index t (0 : Fin 2) * 12000 + 1 * (j 0).val; omega
    | ⟨1, _⟩ => show win0_1.index t (1 : Fin 2) * 128 + 1 * (j 1).val = win0_2.index t (1 : Fin 2) * 128 + 1 * (j 1).val; omega
  rw [h0, h1]

/-- An index lies in point t's result block exactly when each coordinate lies in the block's range on its axis. -/
theorem mem_block (t : Fin cfg0.N) (i : S600000x128.Idx) :
    i ∈ ((cfg0.win 2).blk t).view.set ↔ ∀ a : Fin 2, win0_2.index t a * S12000x128.size a ≤ (i a).val ∧ (i a).val < win0_2.index t a * S12000x128.size a + S12000x128.size a := by
  show i ∈ ((View.whole main_v7).slice (win0_2.rect t)).set ↔ _
  rw [View.set_slice_whole, Rect.mem_set_unit]
  exact Iff.rfl

/-- Every index of the result is in the block of the point numbered by its row divided by 12000. -/
theorem covered (i : S600000x128.Idx) :
    ∃ t : Fin cfg0.N, (cfg0.win 2).flush t = true ∧ i ∈ ((cfg0.win 2).blk t).view.set := by
  have hi0 : (i 0).val < 600000 := (i 0).isLt
  have hi1 : (i 1).val < 128 := (i 1).isLt
  have hN : cfg0.N = 50 := N_0
  let t : Fin cfg0.N := ⟨(i 0).val / 12000, by omega⟩
  obtain ⟨-, -, -, -, e4, e5⟩ := block_indices t
  have q0 : win0_2.index t (0 : Fin 2) = (i 0).val / 12000 := e4
  refine ⟨t, flush0_2 t, ?_⟩
  rw [mem_block]
  intro a
  match a with
  | ⟨0, _⟩ => show win0_2.index t (0 : Fin 2) * 12000 ≤ (i 0).val ∧ (i 0).val < win0_2.index t (0 : Fin 2) * 12000 + 12000; omega
  | ⟨1, _⟩ => show win0_2.index t (1 : Fin 2) * 128 ≤ (i 1).val ∧ (i 1).val < win0_2.index t (1 : Fin 2) * 128 + 128; omega

/-- After the region the result array is the entrywise product of the two operand arrays as the region found them. -/
theorem array_eq (c : Dev nD) :
    (dat0 V c).arrAt 2 cfg0.N = products (V c main_v6) (V c main_arg1) :=
  (dat0 V c).arrAt_eq_of_cover 2 (products (V c main_v6) (V c main_arg1)) (fun t _ => flushed_eq V c t) covered

end Cert.KernelIdeal.EdgeProducts

end
-- ==== Proof.ProjectionEntry.lean ====
/-
  One entry of a projected block.  The second kernel's body takes a block of 5000 aggregated rows x0, the whole
  transposed weight matrix x1, the bias as a single row x2 and the block's 5000 per-node norms as a column x3, and
  stores  (x0 · x1 + x2) · x3  with the bias row repeated down the rows and the norm column repeated across the
  columns.  Over the extended reals the narrowing of both matmul operands to bf16 is the identity and the matrix
  product into a zero accumulator is the plain sum over the 128 contracted features, so entry (p, q) of what is
  stored is  (Σ_k x0[p,k] · x1[k,q] + x2[0,q]) · x3[p,0].
-/
import proofs.«159899_j38740605010510_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjectionEntry

open Cert.KernelIdeal Cert.KernelIdeal.Gen Idealize.ShloMosaic Idealize.ShloMosaic.TcCoe Idealize.SL.Sem
open Idealize.ShloMosaic.ValueIdx

/-- The block matmul's dimension numbers: rows of the left operand against columns of the right, one contracted axis. -/
abbrev rowsByCols : DotDims S5000x128 S128x128 S5000x128 := dot_S5000x128_S128x128_S5000x128_1_0_0_1_n_n

/-- The left operand is read in the output entry's row … -/
theorem lhs_row (i : S5000x128.Idx) (r : rowsByCols.contr.Idx) : (rowsByCols.lhsIdx i r 0).val = (i 0).val := by
  unfold DotDims.lhsIdx
  rw [dif_neg (show ¬(0 : Fin S5000x128.rank) ∈ rowsByCols.lhsBatch by decide), dif_pos (show (0 : Fin S5000x128.rank) ∈ rowsByCols.lhsNonContracting by decide)]
  rfl
/-- … at the contracted feature; -/
theorem lhs_col (i : S5000x128.Idx) (r : rowsByCols.contr.Idx) : (rowsByCols.lhsIdx i r 1).val = (r ⟨0, by decide⟩).val :=
  rowsByCols.lhsIdx_val_of_single rfl i r
/-- the right operand at the contracted feature … -/
theorem rhs_row (i : S5000x128.Idx) (r : rowsByCols.contr.Idx) : (rowsByCols.rhsIdx i r 0).val = (r ⟨0, by decide⟩).val :=
  rowsByCols.rhsIdx_val_of_single rfl i r
/-- … in the output entry's column. -/
theorem rhs_col (i : S5000x128.Idx) (r : rowsByCols.contr.Idx) : (rowsByCols.rhsIdx i r 1).val = (i 1).val := by
  unfold DotDims.rhsIdx
  rw [dif_neg (show ¬(1 : Fin S128x128.rank) ∈ rowsByCols.rhsBatch by decide), dif_pos (show (1 : Fin S128x128.rank) ∈ rowsByCols.rhsNonContracting by decide)]
  rfl

/-- The block matmul into a zero accumulator, at entry (p, q): the sum over the contracted feature k of
    left[p, k] · right[k, q]. -/
theorem product_apply (l : FVec Ideal S5000x128 .bf16) (r : FVec Ideal S128x128 .bf16) (p : Fin 5000) (q : Fin 128) :
    matmul rowsByCols none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 rowsByCols 128 rfl rfl).symm]
  refine Finset.sum_congr rfl fun k _ => ?_
  have hk := contrEquiv1_symm_val rowsByCols 128 rfl rfl k
  have el : rowsByCols.lhsIdx (ix2 p q) ((contrEquiv1 rowsByCols 128 rfl rfl).symm k) = ix2 p k := funext fun a => Fin.ext (by
    match a with
    | ⟨0, _⟩ => exact lhs_row _ _
    | ⟨1, _⟩ => exact (lhs_col _ _).trans hk)
  have er : rowsByCols.rhsIdx (ix2 p q) ((contrEquiv1 rowsByCols 128 rfl rfl).symm k) = ix2 k q := funext fun a => Fin.ext (by
    match a with
    | ⟨0, _⟩ => exact (rhs_row _ _).trans hk
    | ⟨1, _⟩ => exact rhs_col _ _)
  rw [el, er]

/-- The bias row repeated down the 5000 rows reads, at (p, q), the row's entry q. -/
theorem biasRows_apply (x : FVec Ideal S1x128 .f32) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => by
    match a with
    | ⟨0, _⟩ => rfl
    | ⟨1, _⟩ => rfl)

/-- The norm column repeated across the 128 columns reads, at (p, q), the column's entry p. -/
theorem normCols_apply (x : FVec Ideal S5000x1 .f32) (p : Fin 5000) (q : Fin 128) :
    broadcastTo S5000x128 x broadcasts_S5000x1_S5000x128 (ix2 p q) = x (ix2 p (0 : Fin 1)) :=
  broadcastTo_apply x broadcasts_S5000x1_S5000x128 (ix2 p q) (ix2 p (0 : Fin 1)) (fun a => by
    match a with
    | ⟨0, _⟩ => rfl
    | ⟨1, _⟩ => rfl)

/-- Entry (p, q) of what the body stores. -/
theorem payload_apply (x0 : Vec Ideal S5000x128 .f32) (x1 : Vec Ideal S128x128 .f32) (x2 : Vec Ideal S1x128 .f32)
    (x3 : Vec Ideal S5000x1 .f32) (p : Fin 5000) (q : Fin 128) :
    k1_pay1 (F := Ideal) x0 x1 x2 x3 (ix2 p q)
      = (∑ k : Fin 128, x0 (ix2 p k) * x1 (ix2 k q) + x2 (ix2 (0 : Fin 1) q)) * x3 (ix2 p (0 : Fin 1)) := by
  unfold k1_pay1
  rw [shapeCast_self, shapeCast_self, shapeCast_self]
  refine (mulf_apply _ _ _).trans ?_
  refine congrArg₂ (· * ·) ((addf_apply _ _ _).trans (congrArg₂ (· + ·) ?_ (biasRows_apply x2 p q))) (normCols_apply x3 p q)
  exact product_apply (truncf .bf16 x0 bitsLt_bf16_f32) (truncf .bf16 x1 bitsLt_bf16_f32) p q

end Cert.KernelIdeal.ProjectionEntry

end
-- ==== Proof.NodeProjection.lean ====
/-
  The node stage as one array.  The second kernel region runs over ten blocks of 5000 nodes.  At grid point t it
  reads rows 5000·t … 5000·t + 4999 of the aggregated features and of the norm column, the whole transposed weight
  matrix and the whole bias row (the same at every point), and writes the same rows of the result.  The ten row
  blocks partition the 50000 nodes, so after the region entry (n, f) of the result is
      (Σ_k agg[n,k] · wt[k,f] + bias[0,f]) · norm[n,0]
  of the four operand arrays as the region found them.
-/
import proofs.«159899_j38740605010510_1_alg».proof.Proof.Gen.KernelIdeal.Frame
import proofs.«159899_j38740605010510_1_alg».proof.Proof.ProjectionEntry
import Idealize.ShloMosaic.Lib.Pipeline.Value
import Idealize.ShloMosaic.Lib.ValueIdx

noncomputable section

namespace Cert.KernelIdeal.NodeProjection

open Cert.KernelIdeal Cert.KernelIdeal.Gen Idealize.ShloMosaic Idealize.ShloMosaic.TcCoe Idealize.SL.Sem
open Idealize.ShloMosaic.Pipeline (Dat)
open Idealize.ShloMosaic.ValueIdx

/-- Entry (n, f) of the projected, shifted and scaled node features, from the aggregated features, the transposed
    weights, the bias row and the norm column. -/
def entry (agg : S50000x128.Idx → EReal) (wt : S128x128.Idx → EReal) (bias : S1x128.Idx → EReal) (nrm : S50000x1.Idx → EReal)
    (n : Fin 50000) (f : Fin 128) : EReal :=
  (∑ k : Fin 128, agg (ix2 n k) * wt (ix2 k f) + bias (ix2 (0 : Fin 1) f)) * nrm (ix2 n (0 : Fin 1))

/-- The whole array of them. -/
def rowsOut (agg : S50000x128.Idx → EReal) (wt : S128x128.Idx → EReal) (bias : S1x128.Idx → EReal) (nrm : S50000x1.Idx → EReal) :
    S50000x128.Idx → EReal :=
  fun i => entry agg wt bias nrm ⟨(i 0).val, (i 0).isLt⟩ ⟨(i 1).val, (i 1).isLt⟩

theorem rowsOut_ix2 (agg : S50000x128.Idx → EReal) (wt : S128x128.Idx → EReal) (bias : S1x128.Idx → EReal) (nrm : S50000x1.Idx → EReal)
    (n : Fin 50000) (f : Fin 128) : rowsOut agg wt bias nrm (ix2 n f) = entry agg wt bias nrm n f := rfl

variable (V : (c : Dev nD) → (b : Ref sig .tc) → Buf (Elt Ideal) ((c : Thread nD τ).loc b))

/-- The body's loads and its store start at each block's origin. -/
theorem origin : (![0, 0] : Fin 2 → Nat) = fun _ => 0 := funext fun a => by fin_cases a <;> rfl

/-- The block indices over the ten points: the aggregated rows, the norm column and the result move with the point,
    the weights and the bias stay at their one block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of block t is node 5000·t + p. -/
def nodeAt (t : Fin cfg1.N) (p : Fin 5000) : Fin 50000 :=
  ⟨t.val * 5000 + p.val, by have ht : t.val < cfg1.N := t.isLt; have hN : cfg1.N = 10 := N_1; have hp := p.isLt; omega⟩

/-- Where each window's block sits in its array, entry by entry. -/
theorem emb_agg (t : Fin cfg1.N) (p : Fin 5000) (k : Fin 128) :
    ((cfg1.win 0).blk t).view.emb (ix2 p k : S5000x128.Idx) = (ix2 (nodeAt t p) k : S50000x128.Idx) := by
  obtain ⟨e0, e1, -⟩ := block_indices t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega
theorem emb_wt (t : Fin cfg1.N) (k : Fin 128) (q : Fin 128) :
    ((cfg1.win 1).blk t).view.emb (ix2 k q : S128x128.Idx) = (ix2 k q : S128x128.Idx) := by
  obtain ⟨-, -, e2, e3, -⟩ := block_indices t
  funext a; apply Fin.ext
  match a with
  | ⟨0, _⟩ => show win1_1.index t (0 : Fin 2) * 128 + 1 * k.val = k.val; omega
  | ⟨1, _⟩ => show win1_1.index t (1 : Fin 2) * 128 + 1 * q.val = q.val; omega
theorem emb_bias (t : Fin cfg1.N) (q : Fin 128) :
    ((cfg1.win 2).blk t).view.emb (ix2 (0 : Fin 1) q : S1x128.Idx) = (ix2 (0 : Fin 1) q : S1x128.Idx) := by
  obtain ⟨-, -, -, -, e4, e5, -⟩ := block_indices t
  funext a; apply Fin.ext
  match a with
  | ⟨0, _⟩ => show win1_2.index t (0 : Fin 2) * 1 + 1 * 0 = 0; omega
  | ⟨1, _⟩ => show win1_2.index t (1 : Fin 2) * 128 + 1 * q.val = q.val; omega
theorem emb_norm (t : Fin cfg1.N) (p : Fin 5000) :
    ((cfg1.win 3).blk t).view.emb (ix2 p (0 : Fin 1) : S5000x1.Idx) = (ix2 (nodeAt t p) (0 : Fin 1) : S50000x1.Idx) := by
  obtain ⟨-, -, -, -, -, -, e6, e7, -⟩ := block_indices t
  funext a; apply Fin.ext
  match a with
  | ⟨0, _⟩ => show win1_3.index t (0 : Fin 2) * 5000 + 1 * p.val = t.val * 5000 + p.val; omega
  | ⟨1, _⟩ => show win1_3.index t (1 : Fin 2) * 1 + 1 * 0 = 0; omega
theorem emb_out (t : Fin cfg1.N) (p : Fin 5000) (q : Fin 128) :
    ((cfg1.win 4).blk t).view.emb (ix2 p q : S5000x128.Idx) = (ix2 (nodeAt t p) q : S50000x128.Idx) := by
  obtain ⟨-, -, -, -, -, -, -, -, e8, e9⟩ := block_indices t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

/-- Entry y of what the body stores at point t is the projected entry of the node and feature that y is in the
    result array. -/
theorem block_entry (c : Dev nD) (t : Fin cfg1.N) (y : S5000x128.Idx) :
    k1_pay1 (F := Ideal) (iblk1 V c 0 t) (iblk1 V c 1 t) (iblk1 V c 2 t) (iblk1 V c 3 t) y
      = rowsOut (V c main_v10) (V c main_v11) (V c main_v12) (V c main_arg2) (((cfg1.win 4).blk t).view.emb y) := by
  obtain ⟨p, q, rfl⟩ : ∃ (p : Fin 5000) (q : Fin 128), y = ix2 p q := ⟨y 0, y 1, eq_ix2 y⟩
  refine (ProjectionEntry.payload_apply (iblk1 V c 0 t) (iblk1 V c 1 t) (iblk1 V c 2 t) (iblk1 V c 3 t) p q).trans ?_
  rw [emb_out t p q, rowsOut_ix2]
  unfold entry
  have r0 : ∀ k : Fin 128, iblk1 V c 0 t (ix2 p k) = V c main_v10 (ix2 (nodeAt t p) k) := fun k => by
    show V c main_v10 (((cfg1.win 0).blk t).view.emb (ix2 p k : S5000x128.Idx)) = _
    rw [emb_agg t p k]
  have r1 : ∀ k : Fin 128, iblk1 V c 1 t (ix2 k q) = V c main_v11 (ix2 k q) := fun k => by
    show V c main_v11 (((cfg1.win 1).blk t).view.emb (ix2 k q : S128x128.Idx)) = _
    rw [emb_wt t k q]
  have r2 : iblk1 V c 2 t (ix2 (0 : Fin 1) q) = V c main_v12 (ix2 (0 : Fin 1) q) := by
    show V c main_v12 (((cfg1.win 2).blk t).view.emb (ix2 (0 : Fin 1) q : S1x128.Idx)) = _
    rw [emb_bias t q]
  have r3 : iblk1 V c 3 t (ix2 p (0 : Fin 1)) = V c main_arg2 (ix2 (nodeAt t p) (0 : Fin 1)) := by
    show V c main_arg2 (((cfg1.win 3).blk t).view.emb (ix2 p (0 : Fin 1) : S5000x1.Idx)) = _
    rw [emb_norm t p]
  rw [r2, r3]
  exact congrArg₂ (· * ·) (congrArg₂ (· + ·) (Finset.sum_congr rfl fun k _ => by rw [r0 k, r1 k]) rfl) rfl

/-- What point t writes back is row block t of the projected array. -/
theorem flushed_eq (c : Dev nD) (t : Fin cfg1.N) :
    (dat1 V c).flushed 4 t
      = ((cfg1.win 4).blk t).view.read (Elt Ideal) (rowsOut (V c main_v10) (V c main_v11) (V c main_v12) (V c main_arg2)) := by
  show (cfg1.win 4).cut (grid1.coords t) ((dat1 V c).after 4 t) = _
  rw [after1_4]
  unfold out1_4
  rw [View.canon_unit_zero origin]
  simp only [View.ld_unit_zero (S := S5000x128) origin, View.ld_unit_zero (S := S128x128) origin,
    View.ld_unit_zero (S := S1x128) origin, View.ld_unit_zero (S := S5000x1) origin]
  funext j
  exact block_entry V c t j

/-- An index lies in point t's result block exactly when each coordinate lies in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v13).slice (win1_4.rect t)).set ↔ _
  rw [View.set_slice_whole, Rect.mem_set_unit]
  exact Iff.rfl

/-- Every index of the result is in the block of the point numbered by its node divided by 5000. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨-, -, -, -, -, -, -, -, e8, e9⟩ := block_indices t
  have q0 : win1_4.index t (0 : Fin 2) = (i 0).val / 5000 := e8
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region the result array is the projected array of the four operand arrays as the region found them. -/
theorem array_eq (c : Dev nD) :
    (dat1 V c).arrAt 4 cfg1.N = rowsOut (V c main_v10) (V c main_v11) (V c main_v12) (V c main_arg2) :=
  (dat1 V c).arrAt_eq_of_cover 4 (rowsOut (V c main_v10) (V c main_v11) (V c main_v12) (V c main_arg2))
    (fun t _ => flushed_eq V c t) covered

end Cert.KernelIdeal.NodeProjection

end
-- ==== Proof.HostStages.lean ====
/-
  The host operations around the two regions, as functions.  Before the first region the program wraps negative
  destination indices (dst < 0 ? dst + 50000 : dst) and gathers the source rows h[dst]; between the regions it
  scatter-adds the edge messages into a zero array by destination, transposes the weights and lays the bias out as
  a row.  Each is named here once, as a function of the arrays it is applied to, and the two stretches of host
  operations are read at the buffers the regions take: what a buffer holds after a stretch, for ANY contents before
  it.  Gather and scatter-add are never opened: both programs apply the same ones.
-/
import proofs.«159899_j38740605010510_1_alg».proof.Proof.Gen.KernelIdeal.Launch
import Idealize.ShloMosaic.Lib.StableHlo.Run

noncomputable section

namespace Cert.KernelIdeal.HostStages

open Cert.KernelIdeal Cert.KernelIdeal.Gen Idealize.ShloMosaic Idealize.ShloMosaic.TcCoe Idealize.SL.Sem
open Idealize.ShloMosaic.StableHlo

variable {F : FTy → Type} [FloatOps F]

/-- The destination indices with the negative ones wrapped by the node count, as a column of start indices. -/
def wrapped (dst : (⟨S600000, .i32⟩ : BufTy).Contents (Elt F)) : (⟨S600000x1, .i32⟩ : BufTy).Contents (Elt F) :=
  broadcastInDim S600000x1 ![0] bcast_S600000_S600000x1_0
    (select (cmpi .slt dst (broadcastInDim S600000 ![] bcast_S_S600000 (constantI S_ 32 0#32)))
      (addi dst (broadcastInDim S600000 ![] bcast_S_S600000 (constantI S_ 32 50000#32))) dst)

/-- The node features gathered per edge: row e is row dst[e] of h. -/
def gathered (h : (⟨S50000x128, .f32⟩ : BufTy).Contents (Elt F)) (dst : (⟨S600000, .i32⟩ : BufTy).Contents (Elt F)) :
    (⟨S600000x128, .f32⟩ : BufTy).Contents (Elt F) :=
  Host.gather gather_S50000x128_S600000x1_S600000x128_1_0_n_n_0_1_1128 h (wrapped dst)

/-- The edge messages summed per destination node, from zero. -/
def aggregated (msg : (⟨S600000x128, .f32⟩ : BufTy).Contents (Elt F)) (dst : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) msg

/-- The weight matrix transposed. -/
def transposed (w : (⟨S128x128, .f32⟩ : BufTy).Contents (Elt F)) : (⟨S128x128, .f32⟩ : BufTy).Contents (Elt F) :=
  transpose S128x128 [1, 0] w transposes_S128x128_S128x128_1_0

/-- The bias vector laid out as one row. -/
def biasRow (b : (⟨S128, .f32⟩ : BufTy).Contents (Elt F)) : (⟨S1x128, .f32⟩ : BufTy).Contents (Elt F) :=
  shapeCast S1x128 b shapeCasts_S128_S1x128

variable (X : Valuation τ sig (Elt F))

/-! ## After the first stretch (the first region's entry) -/

theorem gather_stage : after hostOps0 X (Proc.devRef .tc main_v6)
    = gathered (X (Proc.devRef .tc main_arg0)) (X (Proc.devRef .tc main_arg3)) := by
  after_results <;> rfl

theorem first_keeps_arg1 : after hostOps0 X (Proc.devRef .tc main_arg1) = X (Proc.devRef .tc main_arg1) := by
  after_results <;> rfl
theorem first_keeps_arg2 : after hostOps0 X (Proc.devRef .tc main_arg2) = X (Proc.devRef .tc main_arg2) := by
  after_results <;> rfl
theorem first_keeps_arg3 : after hostOps0 X (Proc.devRef .tc main_arg3) = X (Proc.devRef .tc main_arg3) := by
  after_results <;> rfl
theorem first_keeps_arg4 : after hostOps0 X (Proc.devRef .tc main_arg4) = X (Proc.devRef .tc main_arg4) := by
  after_results <;> rfl
theorem first_keeps_arg5 : after hostOps0 X (Proc.devRef .tc main_arg5) = X (Proc.devRef .tc main_arg5) := by
  after_results <;> rfl

/-! ## After the second stretch (the second region's entry) -/

theorem scatter_stage : after hostOps1 X (Proc.devRef .tc main_v10)
    = aggregated (X (Proc.devRef .tc main_v7)) (X (Proc.devRef .tc main_arg3)) := by
  after_results <;> rfl

theorem transpose_stage : after hostOps1 X (Proc.devRef .tc main_v11) = transposed (X (Proc.devRef .tc main_arg4)) := by
  after_results <;> rfl

theorem biasRow_stage : after hostOps1 X (Proc.devRef .tc main_v12) = biasRow (X (Proc.devRef .tc main_arg5)) := by
  after_results <;> rfl

theorem second_keeps_arg2 : after hostOps1 X (Proc.devRef .tc main_arg2) = X (Proc.devRef .tc main_arg2) := by
  after_results <;> rfl

end Cert.KernelIdeal.HostStages

end
-- ==== Proof.Layer.lean ====
/-
  The layer as one function.  Both programs compute, for every node n and output feature f,
      out[n, f] = (Σ_k agg[n, k] · W[f, k] + b[f]) · norm[n, 0],     agg = Σ over edges e with dst[e] = n of h[dst[e]] · e_h[e],
  the gather and the per-destination sum being the same host operations in both.  `output` composes the named stages:
  gather, entrywise product with the edge features, sum per destination, projection with the transposed weights,
  the bias row, the norm column.
-/
import proofs.«159899_j38740605010510_1_alg».proof.Proof.EdgeProducts
import proofs.«159899_j38740605010510_1_alg».proof.Proof.NodeProjection
import proofs.«159899_j38740605010510_1_alg».proof.Proof.HostStages

noncomputable section

namespace Cert.KernelIdeal.Layer

open Cert.KernelIdeal Cert.KernelIdeal.Gen Idealize.ShloMosaic Idealize.ShloMosaic.TcCoe Idealize.SL.Sem
open Cert.KernelIdeal.HostStages

/-- The layer's output from its six inputs: gather, multiply by the edge features, sum per destination, project,
    shift, scale. -/
def output (h : (⟨S50000x128, .f32⟩ : BufTy).Contents (Elt Ideal)) (e : (⟨S600000x128, .f32⟩ : BufTy).Contents (Elt Ideal))
    (nrm : (⟨S50000x1, .f32⟩ : BufTy).Contents (Elt Ideal)) (dst : (⟨S600000, .i32⟩ : BufTy).Contents (Elt Ideal))
    (w : (⟨S128x128, .f32⟩ : BufTy).Contents (Elt Ideal)) (b : (⟨S128, .f32⟩ : BufTy).Contents (Elt Ideal)) :
    (⟨S50000x128, .f32⟩ : BufTy).Contents (Elt Ideal) :=
  NodeProjection.rowsOut (aggregated (EdgeProducts.products (gathered h dst) e) dst) (transposed w) (biasRow b) nrm

end Cert.KernelIdeal.Layer

end
-- ==== Proof.KernelValue.lean ====
/-
  What the kernel program returns, as one function of its six arguments.  Following the contents of the buffers from
  the launch to the return:
    * the first stretch of host operations leaves the gathered rows h[dst] and does not touch the arguments;
    * the first region leaves the edge messages, the entrywise product of the gathered rows and e_h;
    * the second stretch sums the messages per destination node, transposes W and lays b out as a row;
    * the second region leaves (agg · Wᵀ + b) · norm, entry by entry.
  Composed, the result buffer holds  output h e_h norm dst W b  at the end of every execution.
-/
import proofs.«159899_j38740605010510_1_alg».proof.Proof.KernelRun
import proofs.«159899_j38740605010510_1_alg».proof.Proof.Layer

noncomputable section

namespace Cert.KernelIdeal.KernelValue

open Cert.KernelIdeal Cert.KernelIdeal.Gen Idealize.ShloMosaic Idealize.ShloMosaic.TcCoe Idealize.SL.Sem
open Cert.KernelIdeal.HostStages Cert.KernelIdeal.Layer

variable (m : (ℓ : Loc nD τ sig) → Buf (Elt Ideal) ℓ) (ρ : Dev nD → PrngReg)

/-! ## The first region's entry -/

theorem entry0_gathered (c : Dev nD) : V1 m ρ c main_v6
    = gathered (m ((c.tc : Thread nD τ).loc main_arg0)) (m ((c.tc : Thread nD τ).loc main_arg3)) :=
  gather_stage (W0 m ρ c)

theorem entry0_arg1 (c : Dev nD) : V1 m ρ c main_arg1 = m ((c.tc : Thread nD τ).loc main_arg1) :=
  first_keeps_arg1 (W0 m ρ c)

/-! ## The first region's exit -/

theorem exit0_messages (c : Dev nD) : W2 m ρ c (Proc.devRef .tc main_v7)
    = EdgeProducts.products (gathered (m ((c.tc : Thread nD τ).loc main_arg0)) (m ((c.tc : Thread nD τ).loc main_arg3)))
        (m ((c.tc : Thread nD τ).loc main_arg1)) := by
  refine (W2_arr m ρ c 2).trans ?_
  rw [EdgeProducts.array_eq (V1 m ρ) c, entry0_gathered m ρ c, entry0_arg1 m ρ c]

theorem exit0_arg2 (c : Dev nD) : W2 m ρ c (Proc.devRef .tc main_arg2) = m ((c.tc : Thread nD τ).loc main_arg2) :=
  (W2_of_ne m ρ c main_arg2 (by decide)).trans (first_keeps_arg2 (W0 m ρ c))
theorem exit0_arg3 (c : Dev nD) : W2 m ρ c (Proc.devRef .tc main_arg3) = m ((c.tc : Thread nD τ).loc main_arg3) :=
  (W2_of_ne m ρ c main_arg3 (by decide)).trans (first_keeps_arg3 (W0 m ρ c))
theorem exit0_arg4 (c : Dev nD) : W2 m ρ c (Proc.devRef .tc main_arg4) = m ((c.tc : Thread nD τ).loc main_arg4) :=
  (W2_of_ne m ρ c main_arg4 (by decide)).trans (first_keeps_arg4 (W0 m ρ c))
theorem exit0_arg5 (c : Dev nD) : W2 m ρ c (Proc.devRef .tc main_arg5) = m ((c.tc : Thread nD τ).loc main_arg5) :=
  (W2_of_ne m ρ c main_arg5 (by decide)).trans (first_keeps_arg5 (W0 m ρ c))

/-! ## The second region's entry -/

theorem entry1_aggregated (c : Dev nD) : V3 m ρ c main_v10
    = aggregated (EdgeProducts.products (gathered (m ((c.tc : Thread nD τ).loc main_arg0)) (m ((c.tc : Thread nD τ).loc main_arg3)))
        (m ((c.tc : Thread nD τ).loc main_arg1))) (m ((c.tc : Thread nD τ).loc main_arg3)) := by
  refine (scatter_stage (W2 m ρ c)).trans ?_
  rw [exit0_messages m ρ c, exit0_arg3 m ρ c]

theorem entry1_transposed (c : Dev nD) : V3 m ρ c main_v11 = transposed (m ((c.tc : Thread nD τ).loc main_arg4)) := by
  refine (transpose_stage (W2 m ρ c)).trans ?_
  rw [exit0_arg4 m ρ c]

theorem entry1_biasRow (c : Dev nD) : V3 m ρ c main_v12 = biasRow (m ((c.tc : Thread nD τ).loc main_arg5)) := by
  refine (biasRow_stage (W2 m ρ c)).trans ?_
  rw [exit0_arg5 m ρ c]

theorem entry1_norm (c : Dev nD) : V3 m ρ c main_arg2 = m ((c.tc : Thread nD τ).loc main_arg2) :=
  (second_keeps_arg2 (W2 m ρ c)).trans (exit0_arg2 m ρ c)

/-! ## The return -/

/-- The last boundary's contents at the result buffer. -/
theorem result_eq (c : Dev nD) : W4 m ρ c (Proc.devRef .tc main_v13)
    = output (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (W4_arr m ρ c 4).trans ?_
  rw [NodeProjection.array_eq (V3 m ρ) c, entry1_aggregated m ρ c, entry1_transposed m ρ c, entry1_biasRow m ρ c, entry1_norm m ρ c]
  rfl

/-- Every weakly fair execution of the kernel program terminates with the result at `output` of the arguments and
    the arguments unchanged. -/
theorem run : θ_run defs (onTc (τ := τ) (main (F := Ideal))) ⟨m, fun _ => 0, ρ⟩ (fun r => ∀ c : Dev nD,
      r.2.mem ((c.tc : Thread nD τ).loc main_v13)
        = output (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (NamedRun.run m ρ)

end Cert.KernelIdeal.KernelValue

end
-- ==== Proof.ReferenceValue.lean ====
/-
  The reference computes the same function.  Its last stage, read at an index (n, f) one operation at a time, is
      (Σ_k agg[n, k] · Wᵀ[k, f] + b[f]) · norm[n, 0]
  where agg is the scatter-add of h[dst] · e_h by destination and Wᵀ the transposed weights — the very stages the
  kernel program applies on the host, so they are matched as whole arrays and never opened.  What is left is to
  identify the index each operation reads at with the coordinates (n, k), (k, f), (0, f), (n, 0), and the bias laid
  out as a row by a reshape (the kernel) with the bias broadcast into a row (the reference): both rows hold b[f] at
  column f.
-/
import proofs.«159899_j38740605010510_1_alg».proof.Proof.Gen.ReferenceIdeal.Read
import proofs.«159899_j38740605010510_1_alg».proof.Proof.Layer
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- The node of an output index. -/
abbrev node (i : S50000x128.Idx) : Fin 50000 := ⟨(i 0).val, (i 0).isLt⟩
/-- The feature of an output index. -/
abbrev feat (i : S50000x128.Idx) : Fin 128 := ⟨(i 1).val, (i 1).isLt⟩

/-- The left operand of the reference's product is read at (node, k) … -/
theorem left_index (i : S50000x128.Idx) (k : Fin 128) : lidx_main_v12 i k = ix2 (node i) k :=
  funext fun a => by match a with | ⟨0, _⟩ => rfl | ⟨1, _⟩ => rfl
/-- … and the right operand at (k, feature). -/
theorem right_index (i : S50000x128.Idx) (k : Fin 128) : ridx_main_v12 i k = ix2 k (feat i) :=
  funext fun a => by match a with | ⟨0, _⟩ => rfl | ⟨1, _⟩ => rfl
/-- The norm column is read at (node, 0). -/
theorem norm_index (i : S50000x128.Idx) : idx_main_v16 i = ix2 (node i) (0 : Fin 1) :=
  funext fun a => by match a with | ⟨0, _⟩ => rfl | ⟨1, _⟩ => rfl

/-- The bias reshaped into a row holds, at column f, the entry the reference's broadcasts read. -/
theorem bias_entry (b : (⟨S128, .f32⟩ : BufTy).Contents (Elt Ideal)) (i : S50000x128.Idx) :
    Cert.KernelIdeal.HostStages.biasRow b (ix2 (0 : Fin 1) (feat i)) = b (idx_main_v13 (idx_main_v14 i)) := by
  unfold Cert.KernelIdeal.HostStages.biasRow
  refine (shapeCast_addUnit_apply ![128] b _ (ix2 (0 : Fin 1) (feat i))).trans (congrArg b ?_)
  funext a
  match a with
  | ⟨0, _⟩ => rfl

/-- The reference's last stage is the layer's output. -/
theorem stage_eq (x0 : (⟨S50000x128, .f32⟩ : BufTy).Contents (Elt Ideal)) (x1 : (⟨S600000x128, .f32⟩ : BufTy).Contents (Elt Ideal))
    (x2 : (⟨S50000x1, .f32⟩ : BufTy).Contents (Elt Ideal)) (x3 : (⟨S600000, .i32⟩ : BufTy).Contents (Elt Ideal))
    (x4 : (⟨S128x128, .f32⟩ : BufTy).Contents (Elt Ideal)) (x5 : (⟨S128, .f32⟩ : BufTy).Contents (Elt Ideal)) :
    val_main_v17 (F := Ideal) x0 x1 x2 x3 x4 x5 = Cert.KernelIdeal.Layer.output x0 x1 x2 x3 x4 x5 := by
  have hagg : val_main_v10 (F := Ideal) x0 x1 x3
      = Cert.KernelIdeal.HostStages.aggregated
          (Cert.KernelIdeal.EdgeProducts.products (Cert.KernelIdeal.HostStages.gathered x0 x3) x1) x3 := rfl
  have hwt : val_main_v11 (F := Ideal) x4 = Cert.KernelIdeal.HostStages.transposed x4 := rfl
  funext i
  rw [val_main_v17_apply, val_main_v15_apply, val_main_v12_apply, val_main_v14_apply, val_main_v13_apply,
    val_main_v16_apply, hagg, hwt]
  show _ = Cert.KernelIdeal.NodeProjection.entry _ _ _ _ (node i) (feat i)
  unfold Cert.KernelIdeal.NodeProjection.entry
  rw [bias_entry x5 i, norm_index i]
  simp only [left_index, right_index]
  rfl

end Cert.ReferenceIdeal.RefValue

end
-- ==== Proof.lean ====
/-
  A graph layer: out = ((Σ_{edges e into n} h[dst e] · e_h[e]) · Wᵀ + b) · norm.

  The kernel program gathers h[dst] on the host, multiplies it with the edge features in a first kernel (fifty row
  blocks), sums the messages per destination on the host, and in a second kernel (ten row blocks) multiplies the
  aggregated features with the transposed weights on the matrix unit in bf16, adds the bias and scales each node's
  row by its norm.  The reference is the same formula in plain array operations, with an f32 `dot_general`.

  Over the extended reals the two agree entry by entry: narrowing to bf16 is the identity; a matrix product into a
  zero accumulator and a `dot_general` are both the sum over the 128 contracted features; the gather and the
  per-destination sum are the same host operations applied to the same arrays; and blocking the rows changes
  nothing, since each kernel's row blocks partition the rows and each block is computed from the same rows of the
  operands.  No law beyond this reading is needed — in particular nothing is distributed over a sum — so the
  finiteness of the inputs is never used.

  The three frames are the generated ones (the reference's is its generated run with the result dropped); the
  idealization rewrote nothing, so `preserves` is trivial; `algebraic` puts the kernel program's run, posted at
  `Layer.output` of the arguments (KernelValue), beside the reference's generated run, whose term is the same
  function (ReferenceValue).
-/
import proofs.«159899_j38740605010510_1_alg».proof.Defs
import proofs.«159899_j38740605010510_1_alg».proof.Proof.Gen.Kernel
import proofs.«159899_j38740605010510_1_alg».proof.Proof.Gen.Kernel.Skeleton
import proofs.«159899_j38740605010510_1_alg».proof.Proof.Gen.Kernel.Launch
import proofs.«159899_j38740605010510_1_alg».proof.Proof.Gen.Kernel.Points
import proofs.«159899_j38740605010510_1_alg».proof.Proof.Gen.Kernel.Frame
import proofs.«159899_j38740605010510_1_alg».proof.Proof.Gen.KernelIdeal
import proofs.«159899_j38740605010510_1_alg».proof.Proof.Gen.KernelIdeal.Skeleton
import proofs.«159899_j38740605010510_1_alg».proof.Proof.Gen.KernelIdeal.Launch
import proofs.«159899_j38740605010510_1_alg».proof.Proof.Gen.KernelIdeal.Points
import proofs.«159899_j38740605010510_1_alg».proof.Proof.Gen.KernelIdeal.Frame
import proofs.«159899_j38740605010510_1_alg».proof.Proof.Gen.ReferenceIdeal
import proofs.«159899_j38740605010510_1_alg».proof.Proof.Gen.ReferenceIdeal.Run
import proofs.«159899_j38740605010510_1_alg».proof.Proof.Gen.ReferenceIdeal.Read
import proofs.«159899_j38740605010510_1_alg».proof.Proof.Gen.Pre_finite_inputs
import proofs.«159899_j38740605010510_1_alg».proof.Proof.KernelValue
import proofs.«159899_j38740605010510_1_alg».proof.Proof.ReferenceValue
import Idealize.ShloMosaic.Adequacy
import Idealize.ShloMosaic.Init

noncomputable section

namespace Cert.Proof

open Idealize.ShloMosaic Idealize.SL.Sem

/-- The kernel program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, both programs end with the layer's output of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans (Cert.ReferenceIdeal.RefValue.stage_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
